-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x128 : Shape := ⟨2, ![1600000, 128]⟩
abbrev S1600000x2 : Shape := ⟨2, ![1600000, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_

variable [Facts]

def fn {F : FTy → Type} [FloatOps F] (main_arg0 : FVec F S100000x128 .f32) (main_arg1 : FVec F S1600000x128 .f32) (main_arg2 : IVec S1600000x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  main_v8
-- ==== Kernel.lean ====
abbrev S100000x128 : Shape := ⟨2, ![100000, 128]⟩
abbrev S1600000x128 : Shape := ⟨2, ![1600000, 128]⟩
abbrev S1600000x2 : Shape := ⟨2, ![1600000, 2]⟩
abbrev S1600000x1 : Shape := ⟨2, ![1600000, 1]⟩
abbrev S1600000 : Shape := ⟨1, ![1600000]⟩
abbrev S_ : Shape := ⟨0, ![]⟩
abbrev S100000 : Shape := ⟨1, ![100000]⟩
abbrev S100000x1 : Shape := ⟨2, ![100000, 1]⟩
abbrev S10000x128 : Shape := ⟨2, ![10000, 128]⟩
abbrev S10000x1 : Shape := ⟨2, ![10000, 1]⟩

abbrev nBuf : Space → Nat
  | .hbm => 47
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000x2, .i32⟩
  | .hbm, ⟨3, _⟩ => ⟨S1600000x1, .i32⟩
  | .hbm, ⟨4, _⟩ => ⟨S1600000, .i32⟩
  | .hbm, ⟨5, _⟩ => ⟨S1600000x1, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S100000, .f32⟩
  | .hbm, ⟨45, _⟩ => ⟨S100000x1, .f32⟩
  | .hbm, ⟨46, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x128 : Shape := ⟨2, ![1600000, 128]⟩
abbrev S1600000x2 : Shape := ⟨2, ![1600000, 2]⟩
abbrev S1600000x1 : Shape := ⟨2, ![1600000, 1]⟩
abbrev S1600000 : Shape := ⟨1, ![1600000]⟩
abbrev S_ : Shape := ⟨0, ![]⟩
abbrev S100000 : Shape := ⟨1, ![100000]⟩
abbrev S100000x1 : Shape := ⟨2, ![100000, 1]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x128, .f32⟩
  | .hbm, ⟨2, _⟩ => ⟨S1600000x2, .i32⟩
  | .hbm, ⟨3, _⟩ => ⟨S1600000x1, .i32⟩
  | .hbm, ⟨4, _⟩ => ⟨S1600000, .i32⟩
  | .hbm, ⟨5, _⟩ => ⟨S1600000x1, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S1600000x1, .i32⟩
  | .hbm, ⟨43, _⟩ => ⟨S100000, .f32⟩
  | .hbm, ⟨44, _⟩ => ⟨S100000, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.NodeUpdate.lean ====
/-
  Undirected message passing over a graph of 100000 nodes with 128 features each: every node's feature row is
  replaced by the mean of itself and its neighbours' messages,

      new[n, f] = (x[n, f] + agg[n, f]) / (deg[n] + 1),

  where `agg[n, ·]` is the sum of the feature rows sent to node `n` along the edge list (both directions) and
  `deg[n]` the number of such messages. Here the update is ONE function of the three arrays `x`, `agg`, `deg`,
  index by index, on the extended reals: a sum, a sum and a quotient per entry, with no law of arithmetic
  between them, so it holds at infinite entries as well as at finite ones.
-/
import Idealize.ShloMosaic.PureOps.Ideal
import Idealize.ShloMosaic.Lib.ValueIdx

noncomputable section

namespace Cert.NodeUpdate

open Idealize.ShloMosaic

/-- The node-feature table: one row of 128 features per node. -/
abbrev Table : Shape := ⟨2, ![100000, 128]⟩

/-- One entry per node. -/
abbrev PerNode : Shape := ⟨1, ![100000]⟩

/-- The node (row) an entry of the feature table belongs to. -/
abbrev nodeOf (i : Table.Idx) : PerNode.Idx := fun a => match a with
  | ⟨0, _⟩ => ⟨(i 0).val, (i 0).isLt⟩

/-- The updated table: entry `(n, f)` is `(x[n, f] + agg[n, f]) / (deg[n] + 1)`, the quotient the extended reals'
    (the `1` is the float pattern of 1.0, the same word in both programs). -/
def update (x agg : Table.Idx → Ideal .f32) (deg : PerNode.Idx → Ideal .f32) : Table.Idx → Ideal .f32 :=
  fun i => Ideal.div (x i + agg i) (deg (nodeOf i) + Ideal.ofBits .f32 0x3F800000#32)

theorem update_apply (x agg : Table.Idx → Ideal .f32) (deg : PerNode.Idx → Ideal .f32) (i : Table.Idx) :
    update x agg deg i = Ideal.div (x i + agg i) (deg (nodeOf i) + Ideal.ofBits .f32 0x3F800000#32) := rfl

end Cert.NodeUpdate

end
-- ==== Proof.RefUpdate.lean ====
/-
  The reference's result, entry by entry. Its last operations add the node table to the accumulated messages,
  add one to the message counts, spread the counts over the 128 features of each node (first as a column,
  then across the row) and divide: entry `(n, f)` is `(x[n, f] + agg[n, f]) / (deg[n] + 1)`, the update of
  `Cert.NodeUpdate` at the reference's own accumulated `agg` and `deg`.
-/
import proofs.«133650_j9775345566164_1_alg».proof.Proof.Gen.ReferenceIdeal.Read
import proofs.«133650_j9775345566164_1_alg».proof.Proof.NodeUpdate

noncomputable section

namespace Cert.ReferenceIdeal.Update

open Cert.ReferenceIdeal Cert.ReferenceIdeal.Read Cert.NodeUpdate Idealize.ShloMosaic

/-- Spreading a per-node value first down a column and then across the row reads, at entry `(n, f)`, the value
    of node `n`. -/
theorem spread_index (i : S100000x128.Idx) : idx_main_v36 (idx_main_v37 i) = nodeOf i :=
  funext fun a => match a with | ⟨0, _⟩ => rfl

/-- The reference's result is the update of the node table by the accumulated messages and their counts. -/
theorem result_eq (x0 : (⟨S100000x128, .f32⟩ : BufTy).Contents (Elt Ideal)) (x2 : (⟨S1600000x2, .i32⟩ : BufTy).Contents (Elt Ideal)) :
    val_main_v38 (F := Ideal) x0 x2 = update x0 (val_main_v24 (F := Ideal) x0 x2) (val_main_v32 (F := Ideal) x2) := by
  funext i
  rw [val_main_v38_apply, val_main_v33_apply, val_main_v37_apply, val_main_v36_apply, val_main_v35_apply,
    val_main_v34_apply, val_main_cst_7_apply, spread_index]
  rfl

end Cert.ReferenceIdeal.Update

end
-- ==== Proof.KernelBlocks.lean ====
/-
  The kernel's result array as ONE function of the arrays its launch finds. The launch walks ten grid points;
  point `t` stages rows `10000 t … 10000 t + 9999` of the node table, of the accumulated messages and of the
  count column, and writes back the same rows of the result. Inside a block, entry `(r, f)` of what is written is
  `(x[r, f] + agg[r, f]) / (deg[r, 0] + 1)`: the count column is spread across the 128 features of its row. A
  block's entry `(r, f)` is the array's entry `(10000 t + r, f)`, for all four windows alike, so what point `t`
  writes back is rows `10000 t …` of one whole-array function; the ten row blocks tile the 100000 rows (row `n`
  lies in block `n / 10000`), so the result array ends holding that function everywhere.
-/
import proofs.«133650_j9775345566164_1_alg».proof.Proof.Gen.KernelIdeal.Value
import Idealize.ShloMosaic.Lib.Pipeline.Value

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The count column's entry for the row of table entry `i`. -/
abbrev colOf (i : S100000x128.Idx) : S100000x1.Idx := fun a => match a with
  | ⟨0, _⟩ => ⟨(i 0).val, (i 0).isLt⟩
  | ⟨1, _⟩ => ⟨0, Nat.one_pos⟩

/-- The whole-array function: entry `i` is `(x i + agg i) / (degcol (row of i, 0) + 1)`. -/
def rowwise (x agg : S100000x128.Idx → Elt F .f32) (degcol : S100000x1.Idx → Elt F .f32) : S100000x128.Idx → Elt F .f32 :=
  fun i => FloatOps.divf (FloatOps.addf (x i) (agg i)) (FloatOps.addf (degcol (colOf i)) (Scalar.ofBits .f32 0x3F800000#32))

/-- The four windows' block indices at a grid point: all of them block `(t, 0)`. -/
theorem block_indices : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = 0 :=
  (by decide +kernel : ∀ t : Fin grid0.N, _)

/-- Every row block is some grid point's. -/
theorem block_onto : ∀ q : Fin 10, ∃ t : Fin cfg0.N, win0_3.index t = ![q.val, 0] :=
  (by decide +kernel : ∀ q : Fin 10, ∃ t : Fin grid0.N, win0_3.index t = ![q.val, 0])

/-- What point `t` writes back is block `t` of the whole-array function of the arrays the launch finds. -/
theorem flushed_eq (c : Dev nD) (t : Fin cfg0.N) :
    (dats m 0 c).flushed 3 t
      = ((cfg0.win 3).blk t).view.read (Elt F) (rowwise (V m c main_arg0) (V m c main_v24) (V m c main_v33)) := by
  rw [flushed3]
  unfold out0_3
  simp only [View.ld_unit_zero (S := S10000x128) zero_offsets, View.ld_unit_zero (S := S10000x1) zero_offsets]
  obtain ⟨e00, e01, e10, e11, e20, e21⟩ := block_indices t
  funext j
  show View.canon [⟨r0_0, k0_pay1 (iblk m c 0 t) (iblk m c 1 t) (iblk m c 2 t)⟩] j
      = rowwise (V m c main_arg0) (V m c main_v24) (V m c main_v33) (((cfg0.win 3).blk t).view.emb j)
  refine (canon3_eq (F := F) (iblk m c 0 t) (iblk m c 1 t) (iblk m c 2 t) j).trans ?_
  have hj0 : (j 0).val < 10000 := (j 0).isLt
  have hj1 : (j 1).val < 128 := (j 1).isLt
  have h0 : ((cfg0.win 0).blk t).view.emb (ix3_0 j) = ((cfg0.win 3).blk t).view.emb j := by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb (ix3_1 j) = ((cfg0.win 3).blk t).view.emb j := by
    funext a; apply Fin.ext
    match a with
    | ⟨0, _⟩ => show win0_1.index t (0 : Fin 2) * 10000 + 1 * (j 0).val = win0_3.index t (0 : Fin 2) * 10000 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb (ix3_2 j) = colOf (((cfg0.win 3).blk t).view.emb j) := by
    funext a; apply Fin.ext
    match a with
    | ⟨0, _⟩ => show win0_2.index t (0 : Fin 2) * 10000 + 1 * (j 0).val = win0_3.index t (0 : Fin 2) * 10000 + 1 * (j 0).val; omega
    | ⟨1, _⟩ => show win0_2.index t (1 : Fin 2) * 1 + 1 * 0 = 0; omega
  show FloatOps.divf (FloatOps.addf (V m c main_arg0 (((cfg0.win 0).blk t).view.emb (ix3_0 j))) (V m c main_v24 (((cfg0.win 1).blk t).view.emb (ix3_1 j))))
        (FloatOps.addf (V m c main_v33 (((cfg0.win 2).blk t).view.emb (ix3_2 j))) (Scalar.ofBits .f32 0x3F800000#32))
      = FloatOps.divf (FloatOps.addf (V m c main_arg0 (((cfg0.win 3).blk t).view.emb j)) (V m c main_v24 (((cfg0.win 3).blk t).view.emb j)))
        (FloatOps.addf (V m c main_v33 (colOf (((cfg0.win 3).blk t).view.emb j))) (Scalar.ofBits .f32 0x3F800000#32))
  rw [h0, h1, h2]

/-- An entry of the result array lies in point `t`'s block iff its row is one of the block's 10000 rows. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v34).slice (win0_3.rect t)).set ↔ _
  rw [View.set_slice_whole, Rect.mem_set_unit]
  exact Iff.rfl

/-- The ten row blocks tile the array: row `n` lies in the block of point `n / 10000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := block_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The result array after the launch is the whole-array function of the arrays the launch finds. -/
theorem final (c : Dev nD) :
    (dats m 0 c).arrAt 3 cfg0.N = rowwise (V m c main_arg0) (V m c main_v24) (V m c main_v33) :=
  (dats m 0 c).arrAt_eq_of_cover 3 (rowwise (V m c main_arg0) (V m c main_v24) (V m c main_v33))
    (fun t _ => flushed_eq m c t) covered

end Cert.KernelIdeal.Blocks

end
-- ==== Proof.EntryAgg.lean ====
/-
  What the kernel's launch finds in the array of its second operand. Before the launch the program gathers, for
  every edge, the feature row of one endpoint and adds it into the row of the other (once per direction), and adds
  the two tables: the accumulated messages `agg`. These are operation for operation the reference's first
  operations on the same node table and edge list, so the array is the very function of the arguments that the
  reference's accumulated messages are.
-/
import proofs.«133650_j9775345566164_1_alg».proof.Proof.Gen.KernelIdeal.Frame
import proofs.«133650_j9775345566164_1_alg».proof.Proof.Gen.ReferenceIdeal.Read
import Idealize.ShloMosaic.Lib.StableHlo.Run
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- At the launch, the second operand's array holds the messages accumulated from the node table and the edge list. -/
theorem agg_entry (c : Dev nD) :
    (V m c main_v24 : S100000x128.Idx → EReal)
      = Cert.ReferenceIdeal.Read.val_main_v24 (F := Ideal) (m ((c : Thread nD τ).loc main_arg0)) (m ((c : Thread nD τ).loc main_arg2)) := by
  dsimp only [V, hostOps0]
  after_results_simp
  rfl

end Cert.KernelIdeal.Entry

end
-- ==== Proof.EntryDeg.lean ====
/-
  What the kernel's launch finds in the array of its third operand. Before the launch the program counts, for
  every node, the edges it is an endpoint of (once per direction) and lays the counts out as a column of one
  entry per node. The counting is operation for operation the reference's on the same edge list, so the column's
  entry for node `n` is the reference's message count of node `n`.
-/
import proofs.«133650_j9775345566164_1_alg».proof.Proof.Gen.KernelIdeal.Frame
import proofs.«133650_j9775345566164_1_alg».proof.Proof.Gen.ReferenceIdeal.Read
import Idealize.ShloMosaic.Lib.StableHlo.Run
import Idealize.ShloMosaic.Lib.Pipeline.Value
import Idealize.ShloMosaic.PureOps.Ideal

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- At the launch, the third operand's array is the column of the message counts. -/
theorem deg_entry (c : Dev nD) :
    (V m c main_v33 : S100000x1.Idx → EReal)
      = broadcastInDim S100000x1 ![0] Cert.KernelIdeal.Facts₀.bcast_S100000_S100000x1_0
          (Cert.ReferenceIdeal.Read.val_main_v32 (F := Ideal) (m ((c : Thread nD τ).loc main_arg2))) := by
  dsimp only [V, hostOps0]
  after_results_simp
  rfl

/-- The column's entry in row `n` is the count of node `n`. -/
theorem column_apply (deg : S100000.Idx → EReal) (k : S100000x1.Idx) (n : S100000.Idx) (hn : (n 0).val = (k 0).val) :
    broadcastInDim S100000x1 ![0] Cert.KernelIdeal.Facts₀.bcast_S100000_S100000x1_0 deg k = deg n :=
  broadcastInDim_apply _ Cert.KernelIdeal.Facts₀.bcast_S100000_S100000x1_0 deg k n (fun a => match a with
    | ⟨0, _⟩ => by show (n 0).val = if (100000 : Nat) = 1 then 0 else (k 0).val; rw [if_neg (by decide), hn])

end Cert.KernelIdeal.Entry

end
-- ==== Proof.KernelUpdate.lean ====
/-
  The kernel's run, read: its result array ends holding the update of the node table by the accumulated messages
  and their counts. The launch finds the node table untouched, the accumulated messages in its second operand's
  array and the counts as a column in its third operand's array; the result array is the row-wise function of
  those three; and reading the count column at row `n` gives the count of node `n`.
-/
import proofs.«133650_j9775345566164_1_alg».proof.Proof.KernelBlocks
import proofs.«133650_j9775345566164_1_alg».proof.Proof.EntryAgg
import proofs.«133650_j9775345566164_1_alg».proof.Proof.EntryDeg
import proofs.«133650_j9775345566164_1_alg».proof.Proof.NodeUpdate

noncomputable section

namespace Cert.KernelIdeal.Update

open Cert.KernelIdeal Cert.KernelIdeal.Gen Cert.NodeUpdate Idealize.ShloMosaic Idealize.ShloMosaic.TcCoe Idealize.SL.Sem

variable (m : (ℓ : Loc nD τ sig) → Buf (Elt Ideal) ℓ) (ρ : Dev nD → PrngReg)

/-- The accumulated messages, as a function of the node table and the edge list. -/
abbrev agg (c : Dev nD) : Table.Idx → Ideal .f32 :=
  Cert.ReferenceIdeal.Read.val_main_v24 (F := Ideal) (m ((c : Thread nD τ).loc main_arg0)) (m ((c : Thread nD τ).loc main_arg2))

/-- The message counts, as a function of the edge list. -/
abbrev deg (c : Dev nD) : PerNode.Idx → Ideal .f32 :=
  Cert.ReferenceIdeal.Read.val_main_v32 (F := Ideal) (m ((c : Thread nD τ).loc main_arg2))

/-- The row-wise function depends only on the three arrays. -/
theorem rowwise_congr {x x' agg agg' : S100000x128.Idx → Elt Ideal .f32} {dc dc' : S100000x1.Idx → Elt Ideal .f32}
    (hx : x = x') (ha : agg = agg') (hd : dc = dc') :
    Blocks.rowwise (F := Ideal) x agg dc = Blocks.rowwise (F := Ideal) x' agg' dc' := by
  subst hx ha hd; rfl

/-- With the counts laid out as a column, the row-wise function is the update: the column's entry in the row of
    `(n, f)` is the count of node `n`. -/
theorem rowwise_column (x agg : Table.Idx → Ideal .f32) (d : PerNode.Idx → Ideal .f32) :
    Blocks.rowwise (F := Ideal) x agg (broadcastInDim S100000x1 ![0] Cert.KernelIdeal.Facts₀.bcast_S100000_S100000x1_0 d)
      = update x agg d := by
  funext i
  show Ideal.div (x i + agg i) (broadcastInDim S100000x1 ![0] Cert.KernelIdeal.Facts₀.bcast_S100000_S100000x1_0 d (Blocks.colOf i) + Ideal.ofBits .f32 0x3F800000#32)
      = Ideal.div (x i + agg i) (d (nodeOf i) + Ideal.ofBits .f32 0x3F800000#32)
  rw [Entry.column_apply d (Blocks.colOf i) (nodeOf i) rfl]

/-- The row-wise function of the arrays the launch finds is the update of the node table. -/
theorem entry_update (c : Dev nD) :
    Blocks.rowwise (F := Ideal) (V m c main_arg0) (V m c main_v24) (V m c main_v33)
      = update (m ((c : Thread nD τ).loc main_arg0)) (agg m c) (deg m c) :=
  (rowwise_congr (V_main_arg0 m c) (Entry.agg_entry m c) (Entry.deg_entry m c)).trans
    (rowwise_column (m ((c : Thread nD τ).loc main_arg0)) (agg m c) (deg m c))

/-- Every weakly fair execution of the kernel's program ends with the result array at the update and the
    arguments unchanged. -/
theorem run : θ_run defs (onTc (τ := τ) (main (F := Ideal))) ⟨m, fun _ => 0, ρ⟩ fun r => ∀ c : Dev nD,
      r.2.mem ((c : Thread nD τ).loc main_v34) = update (m ((c : Thread nD τ).loc main_arg0)) (agg m c) (deg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((Blocks.final m c).trans (entry_update m c)), (h c).2⟩)
    (Cert.KernelIdeal.Value.run_blocks m ρ)

end Cert.KernelIdeal.Update

end
-- ==== Proof.lean ====
/-
  Undirected message passing on 100000 nodes of 128 features over a list of 1600000 edges: both programs gather,
  for every edge and in both directions, an endpoint's feature row into the other endpoint's accumulator
  (`agg`) and count the messages per node (`deg`), by the same operations in the same order; then each node's
  row becomes `(x + agg) / (deg + 1)`. The kernel's program does this last step in ten row blocks of 10000 nodes
  with the counts held as a column; the reference does it on the whole table with the counts spread across each
  row. Entry by entry both are `(x[n, f] + agg[n, f]) / (deg[n] + 1)` on the extended reals, with the same
  operands in the same order, so no law of arithmetic and no finiteness of the inputs is needed. The second
  result of both programs is the edge-feature array, returned as it was given.
  The three frames are the programs' runs with the values forgotten; the idealization rewrote nothing, so
  `preserves` is trivial.
-/
import proofs.«133650_j9775345566164_1_alg».proof.Defs
import proofs.«133650_j9775345566164_1_alg».proof.Proof.Gen.Kernel
import proofs.«133650_j9775345566164_1_alg».proof.Proof.Gen.Kernel.Frame
import proofs.«133650_j9775345566164_1_alg».proof.Proof.Gen.KernelIdeal
import proofs.«133650_j9775345566164_1_alg».proof.Proof.Gen.KernelIdeal.Frame
import proofs.«133650_j9775345566164_1_alg».proof.Proof.Gen.KernelIdeal.Value
import proofs.«133650_j9775345566164_1_alg».proof.Proof.Gen.ReferenceIdeal
import proofs.«133650_j9775345566164_1_alg».proof.Proof.Gen.ReferenceIdeal.Run
import proofs.«133650_j9775345566164_1_alg».proof.Proof.Gen.ReferenceIdeal.Read
import proofs.«133650_j9775345566164_1_alg».proof.Proof.Gen.Pre_finite_inputs
import proofs.«133650_j9775345566164_1_alg».proof.Proof.RefUpdate
import proofs.«133650_j9775345566164_1_alg».proof.Proof.KernelUpdate
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its results forgotten: it terminates, nothing faults, the arguments are unchanged. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the node table, the edge features and the edge list, both programs end with the
    updated node table `(x + agg) / (deg + 1)` of those arguments and with the edge features as given. -/
theorem algebraic : Cert.algebraic_KernelIdeal_ReferenceIdeal := by
  intro m ρ m' ρ' _ hagree
  refine ⟨fun c => Cert.NodeUpdate.update (m ((c : Thread Cert.KernelIdeal.nD Cert.KernelIdeal.τ).loc Cert.KernelIdeal.main_arg0))
      (Cert.KernelIdeal.Update.agg m c) (Cert.KernelIdeal.Update.deg m c),
    fun c => m ((c : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.KernelIdeal.Update.run m ρ)
  · refine (θ_run Cert.ReferenceIdeal.defs _ _).mono (fun _ h c => ?_) (Cert.ReferenceIdeal.Value.run (F := Ideal) m' ρ')
    obtain ⟨hres, hedges, hkept⟩ := h c
    obtain ⟨a0, a1, a2⟩ := hagree c
    refine ⟨?_, hedges.trans a1, hkept⟩
    rw [hres, Cert.ReferenceIdeal.Read.val_main_v38_eq, Cert.ReferenceIdeal.Update.result_eq, a0, a2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
